-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x200 : Shape := ⟨2, ![16384, 200]⟩
abbrev S2x5 : Shape := ⟨2, ![2, 5]⟩
abbrev S_ : Shape := ⟨0, ![]⟩

class Facts : Prop where
  bcast_S_S2x5 : S_.BroadcastsInDim S2x5 (![] : Fin 0 → Fin S2x5.rank)
  reducesTo_S2x5_S_d0_1 : S2x5.ReducesTo [0, 1] S_
  h_S_ : 0 < S_.numel
  bcast_S_S16384x200 : S_.BroadcastsInDim S16384x200 (![] : Fin 0 → Fin S16384x200.rank)
  reducesTo_S16384x200_S_d0_1 : S16384x200.ReducesTo [0, 1] S_

variable [Facts]

def fn {F : FTy → Type} [FloatOps F] (main_arg0 : IVec S16384x200 32) (main_arg1 : FVec F S2x5 .f32) : IVec S_ 1 :=
  let main_v0 : FVec F S2x5 .f32 := Host.absf main_arg1
  let main_cst : FVec F S_ .f32 := constant S_ .f32 0x7F800000#32
  let main_v1 : FVec F S2x5 .f32 := broadcastInDim S2x5 ![] bcast_S_S2x5 main_cst
  let main_v2 : IVec S2x5 1 := cmpf .olt main_v0 main_v1
  let main_c : IVec S_ 1 := constantI S_ 1 1#1
  let main_v3 : IVec S_ 1 := (fun x v => Host.reduce IntOp.andi x v reducesTo_S2x5_S_d0_1 h_S_) main_v2 main_c
  let main_c_0 : IVec S_ 32 := constantI S_ 32 0#32
  let main_v4 : IVec S16384x200 32 := broadcastInDim S16384x200 ![] bcast_S_S16384x200 main_c_0
  let main_v5 : IVec S16384x200 1 := cmpi .sge main_arg0 main_v4
  let main_c_1 : IVec S_ 1 := constantI S_ 1 1#1
  let main_v6 : IVec S_ 1 := (fun x v => Host.reduce IntOp.andi x v reducesTo_S16384x200_S_d0_1 h_S_) main_v5 main_c_1
  let main_v7 : IVec S_ 1 := andi main_v3 main_v6
  let main_c_2 : IVec S_ 32 := constantI S_ 32 2#32
  let main_v8 : IVec S16384x200 32 := broadcastInDim S16384x200 ![] bcast_S_S16384x200 main_c_2
  let main_v9 : IVec S16384x200 1 := cmpi .slt main_arg0 main_v8
  let main_c_3 : IVec S_ 1 := constantI S_ 1 1#1
  let main_v10 : IVec S_ 1 := (fun x v => Host.reduce IntOp.andi x v reducesTo_S16384x200_S_d0_1 h_S_) main_v9 main_c_3
  let main_v11 : IVec S_ 1 := andi main_v7 main_v10
  main_v11
-- ==== Kernel.lean ====
abbrev S16384x200 : Shape := ⟨2, ![16384, 200]⟩
abbrev S2x5 : Shape := ⟨2, ![2, 5]⟩
abbrev S1000 : Shape := ⟨1, ![1000]⟩
abbrev S1x1000 : Shape := ⟨2, ![1, 1000]⟩
abbrev S_ : Shape := ⟨0, ![]⟩
abbrev S200 : Shape := ⟨1, ![200]⟩
abbrev S200x1 : Shape := ⟨2, ![200, 1]⟩
abbrev S200x1000 : Shape := ⟨2, ![200, 1000]⟩
abbrev S1x5 : Shape := ⟨2, ![1, 5]⟩
abbrev S5 : Shape := ⟨1, ![5]⟩
abbrev S200x5 : Shape := ⟨2, ![200, 5]⟩
abbrev S16384x1000 : Shape := ⟨2, ![16384, 1000]⟩
abbrev S1024x200 : Shape := ⟨2, ![1024, 200]⟩
abbrev S1024x1000 : Shape := ⟨2, ![1024, 1000]⟩
abbrev S16384x200x5 : Shape := ⟨3, ![16384, 200, 5]⟩

abbrev nBuf : Space → Nat
  | .hbm => 42
  | .vmem => 7
  | .smem => 0
  | _ => 0

abbrev bufTy : (tb : Table) → Fin (tcTables nBuf tb) → BufTy
  | .hbm, ⟨0, _⟩ => ⟨S16384x200, .i32⟩
  | .hbm, ⟨1, _⟩ => ⟨S2x5, .f32⟩
  | .hbm, ⟨2, _⟩ => ⟨S1000, .i32⟩
  | .hbm, ⟨3, _⟩ => ⟨S1x1000, .i32⟩
  | .hbm, ⟨4, _⟩ => ⟨S_, .i32⟩
  | .hbm, ⟨5, _⟩ => ⟨S_, .i32⟩
  | .hbm, ⟨6, _⟩ => ⟨S1x1000, .i32⟩
  | .hbm, ⟨7, _⟩ => ⟨S1x1000, .i32⟩
  | .hbm, ⟨8, _⟩ => ⟨S1x1000, .i32⟩
  | .hbm, ⟨9, _⟩ => ⟨S_, .i32⟩
  | .hbm, ⟨10, _⟩ => ⟨S1x1000, .i32⟩
  | .hbm, ⟨11, _⟩ => ⟨S1x1000, .i1⟩
  | .hbm, ⟨12, _⟩ => ⟨S1x1000, .i32⟩
  | .hbm, ⟨13, _⟩ => ⟨S1x1000, .i32⟩
  | .hbm, ⟨14, _⟩ => ⟨S_, .i32⟩
  | .hbm, ⟨15, _⟩ => ⟨S1x1000, .i32⟩
  | .hbm, ⟨16, _⟩ => ⟨S1x1000, .i1⟩
  | .hbm, ⟨17, _⟩ => ⟨S1x1000, .i1⟩
  | .hbm, ⟨18, _⟩ => ⟨S_, .i32⟩
  | .hbm, ⟨19, _⟩ => ⟨S1x1000, .i32⟩
  | .hbm, ⟨20, _⟩ => ⟨S1x1000, .i32⟩
  | .hbm, ⟨21, _⟩ => ⟨S1x1000, .i32⟩
  | .hbm, ⟨22, _⟩ => ⟨S200, .i32⟩
  | .hbm, ⟨23, _⟩ => ⟨S200x1, .i32⟩
  | .hbm, ⟨24, _⟩ => ⟨S200x1000, .i32⟩
  | .hbm, ⟨25, _⟩ => ⟨S200x1000, .i32⟩
  | .hbm, ⟨26, _⟩ => ⟨S200x1000, .i1⟩
  | .hbm, ⟨27, _⟩ => ⟨S200x1000, .bf16⟩
  | .hbm, ⟨28, _⟩ => ⟨S1x5, .f32⟩
  | .hbm, ⟨29, _⟩ => ⟨S5, .f32⟩
  | .hbm, ⟨30, _⟩ => ⟨S1x5, .f32⟩
  | .hbm, ⟨31, _⟩ => ⟨S200x5, .f32⟩
  | .hbm, ⟨32, _⟩ => ⟨S1000, .f32⟩
  | .hbm, ⟨33, _⟩ => ⟨S1x1000, .f32⟩
  | .hbm, ⟨34, _⟩ => ⟨S1x5, .f32⟩
  | .hbm, ⟨35, _⟩ => ⟨S5, .f32⟩
  | .hbm, ⟨36, _⟩ => ⟨S1x5, .f32⟩
  | .hbm, ⟨37, _⟩ => ⟨S200x5, .f32⟩
  | .hbm, ⟨38, _⟩ => ⟨S1000, .f32⟩
  | .hbm, ⟨39, _⟩ => ⟨S1x1000, .f32⟩
  | .hbm, ⟨40, _⟩ => ⟨S16384x1000, .f32⟩
  | .hbm, ⟨41, _⟩ => ⟨S16384x200x5, .f32⟩
  | .local _ .vmem, ⟨0, _⟩ => ⟨S1024x200, .i32⟩
  | .local _ .vmem, ⟨1, _⟩ => ⟨S1024x200, .i32⟩
  | .local _ .vmem, ⟨2, _⟩ => ⟨S200x1000, .bf16⟩
  | .local _ .vmem, ⟨3, _⟩ => ⟨S1x1000, .f32⟩
  | .local _ .vmem, ⟨4, _⟩ => ⟨S1x1000, .f32⟩
  | .local _ .vmem, ⟨5, _⟩ => ⟨S1024x1000, .f32⟩
  | .local _ .vmem, ⟨6, _⟩ => ⟨S1024x1000, .f32⟩
  | _, _ => ⟨S16384x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x200 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x1000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S1000_S1x1000_1 : S1000.BroadcastsInDim S1x1000 (![1] : Fin 1 → Fin S1x1000.rank)
  bcast_S_S1x1000 : S_.BroadcastsInDim S1x1000 (![] : Fin 0 → Fin S1x1000.rank)
  bcast_S200_S200x1_0 : S200.BroadcastsInDim S200x1 (![0] : Fin 1 → Fin S200x1.rank)
  bcast_S1x1000_S200x1000_0_1 : S1x1000.BroadcastsInDim S200x1000 (![0, 1] : Fin 2 → Fin S200x1000.rank)
  bcast_S200x1_S200x1000_0_1 : S200x1.BroadcastsInDim S200x1000 (![0, 1] : Fin 2 → Fin S200x1000.rank)
  slices_S2x5_S1x5_0_0 : S2x5.Slices ![0, 0] S1x5
  shapeCasts_S1x5_S5 : S1x5.ShapeCasts S5
  shapeCasts_S5_S1x5 : S5.ShapeCasts S1x5
  bcast_S1x5_S200x5_0_1 : S1x5.BroadcastsInDim S200x5 (![0, 1] : Fin 2 → Fin S200x5.rank)
  shapeCasts_S200x5_S1000 : S200x5.ShapeCasts S1000
  slices_S2x5_S1x5_1_0 : S2x5.Slices ![1, 0] S1x5
  inb_S1024x200_S1024x200_0_0 : ∀ a, (![0, 0] : Fin 2 → Nat) a + S1024x200.size a ≤ S1024x200.size a
  h_S1024x200 : 0 < S1024x200.numel
  inb_S200x1000_S200x1000_0_0 : ∀ a, (![0, 0] : Fin 2 → Nat) a + S200x1000.size a ≤ S200x1000.size a
  h_S200x1000 : 0 < S200x1000.numel
  shapeCasts_S200x1000_S200x1000 : S200x1000.ShapeCasts S200x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S1024x1000 : S1x1000.Broadcasts S1024x1000
  inb_S1024x1000_S1024x1000_0_0 : ∀ a, (![0, 0] : Fin 2 → Nat) a + S1024x1000.size a ≤ S1024x1000.size a
  h_S1024x1000 : 0 < S1024x1000.numel
  shapeCasts_S16384x1000_S16384x200x5 : S16384x1000.ShapeCasts S16384x200x5
  dot_S1024x200_S200x1000_S1024x1000_1_0_0_1_n_n_wf : DotDims.WF S1024x200 S200x1000 S1024x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x200.size a ≤ S16384x200.size a
  hwx0_0 : ∀ i : grid0.Coords, EltTy.bits .i32 = 32 ∨ (Rect.block (s := S16384x200) S1024x200.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S200x1000.size a ≤ S200x1000.size a
  hwx0_1 : ∀ i : grid0.Coords, EltTy.bits .bf16 = 32 ∨ (Rect.block (s := S200x1000) S200x1000.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1000.size a ≤ S1x1000.size a
  hwx0_3 : ∀ i : grid0.Coords, EltTy.bits .f32 = 32 ∨ (Rect.block (s := S1x1000) S1x1000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1000.size a ≤ S16384x1000.size a
  hwx0_4 : ∀ i : grid0.Coords, EltTy.bits .f32 = 32 ∨ (Rect.block (s := S16384x1000) S1024x1000.size (cc0_transform_4 i) (hinb0_4 i)).WholeWords (EltTy.packing .f32)

variable [Facts₀]

def dot_S1024x200_S200x1000_S1024x1000_1_0_0_1_n_n : DotDims S1024x200 S200x1000 S1024x1000 where
  lhsContracting := [1]
  rhsContracting := [0]
  lhsNonContracting := [0]
  rhsNonContracting := [1]
  lhsBatch := []
  rhsBatch := []
  wf := dot_S1024x200_S200x1000_S1024x1000_1_0_0_1_n_n_wf

abbrev win0_0 : Pipeline.Window sig grid0 :=
  Pipeline.Window.ofSpec (Memref.whole main_arg0) S1024x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S200x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x1000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1024x1000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x200 : Shape := ⟨2, ![16384, 200]⟩
abbrev S2x5 : Shape := ⟨2, ![2, 5]⟩
abbrev S_ : Shape := ⟨0, ![]⟩
abbrev S16384x200x1 : Shape := ⟨3, ![16384, 200, 1]⟩
abbrev S1 : Shape := ⟨1, ![1]⟩
abbrev S1x1x1 : Shape := ⟨3, ![1, 1, 1]⟩
abbrev S16384x200x5 : Shape := ⟨3, ![16384, 200, 5]⟩

abbrev nBuf : Space → Nat
  | .hbm => 25
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S2x5, .f32⟩
  | .hbm, ⟨2, _⟩ => ⟨S_, .i32⟩
  | .hbm, ⟨3, _⟩ => ⟨S16384x200, .i32⟩
  | .hbm, ⟨4, _⟩ => ⟨S16384x200, .i1⟩
  | .hbm, ⟨5, _⟩ => ⟨S_, .i32⟩
  | .hbm, ⟨6, _⟩ => ⟨S16384x200, .i32⟩
  | .hbm, ⟨7, _⟩ => ⟨S16384x200, .i32⟩
  | .hbm, ⟨8, _⟩ => ⟨S16384x200, .i32⟩
  | .hbm, ⟨9, _⟩ => ⟨S16384x200x1, .i32⟩
  | .hbm, ⟨10, _⟩ => ⟨S1, .i32⟩
  | .hbm, ⟨11, _⟩ => ⟨S_, .i32⟩
  | .hbm, ⟨12, _⟩ => ⟨S16384x200x1, .i32⟩
  | .hbm, ⟨13, _⟩ => ⟨S16384x200x1, .i1⟩
  | .hbm, ⟨14, _⟩ => ⟨S1x1x1, .i32⟩
  | .hbm, ⟨15, _⟩ => ⟨S16384x200x1, .i32⟩
  | .hbm, ⟨16, _⟩ => ⟨S16384x200x1, .i1⟩
  | .hbm, ⟨17, _⟩ => ⟨S16384x200x1, .i1⟩
  | .hbm, ⟨18, _⟩ => ⟨S_, .i1⟩
  | .hbm, ⟨19, _⟩ => ⟨S16384x200, .i1⟩
  | .hbm, ⟨20, _⟩ => ⟨S16384x200x5, .f32⟩
  | .hbm, ⟨21, _⟩ => ⟨S16384x200x5, .i1⟩
  | .hbm, ⟨22, _⟩ => ⟨S_, .f32⟩
  | .hbm, ⟨23, _⟩ => ⟨S16384x200x5, .f32⟩
  | .hbm, ⟨24, _⟩ => ⟨S16384x200x5, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384x200 : S_.BroadcastsInDim S16384x200 (![] : Fin 0 → Fin S16384x200.rank)
  bcast_S16384x200_S16384x200x1_0_1 : S16384x200.BroadcastsInDim S16384x200x1 (![0, 1] : Fin 2 → Fin S16384x200x1.rank)
  bcast_S_S16384x200x1 : S_.BroadcastsInDim S16384x200x1 (![] : Fin 0 → Fin S16384x200x1.rank)
  bcast_S1_S1x1x1_2 : S1.BroadcastsInDim S1x1x1 (![2] : Fin 1 → Fin S1x1x1.rank)
  bcast_S1x1x1_S16384x200x1_0_1_2 : S1x1x1.BroadcastsInDim S16384x200x1 (![0, 1, 2] : Fin 3 → Fin S16384x200x1.rank)
  reducesTo_S16384x200x1_S16384x200_d2 : S16384x200x1.ReducesTo [2] S16384x200
  h_S_ : 0 < S_.numel
  bcast_S16384x200_S16384x200x5_0_1 : S16384x200.BroadcastsInDim S16384x200x5 (![0, 1] : Fin 2 → Fin S16384x200x5.rank)
  bcast_S_S16384x200x5 : S_.BroadcastsInDim S16384x200x5 (![] : Fin 0 → Fin S16384x200x5.rank)
  gather_S2x5_S16384x200x1_S16384x200x5_2_0_n_n_0_2_15_wf : GatherDims.WF S2x5 S16384x200x1 S16384x200x5 [2] [0] [] [0] [] 2 ![1, 5]

variable [Facts₀]

def gather_S2x5_S16384x200x1_S16384x200x5_2_0_n_n_0_2_15 : GatherDims S2x5 S16384x200x1 S16384x200x5 where
  offsetDims := [2]
  collapsedSliceDims := [0]
  operandBatchingDims := []
  startIndicesBatchingDims := []
  startIndexMap := [0]
  indexVectorDim := 2
  sliceSizes := ![1, 5]
  wf := gather_S2x5_S16384x200x1_S16384x200x5_2_0_n_n_0_2_15_wf

class Facts : Prop extends Facts₀ where

variable [Facts]
-- ==== Proof.LibPlainDot.lean ====
/-
  Two general facts about sums, used wherever a matrix product is read entry by entry.

  * A product of an [a, K] matrix with a [K, b] matrix on the matrix unit, accumulated into the zero array, has at
    entry (p, q) the value  ∑ k < K, lhs (p, k) · rhs (k, q)  on the extended reals. The dimension numbers enter only
    through four facts about where the contraction reads its operands, each of which is decided by unfolding for a
    literal record: it contracts the left operand's axis 1 with the right operand's axis 0, and carries the output's
    row to the left operand and the output's column to the right one.
  * A sum over  n = a + b + c  consecutive positions is the sum over the first a, plus the sum over the next b, plus
    the sum over the last c. This holds in any commutative monoid, so on the extended reals it needs no finiteness:
    only the order and grouping of the terms change.
-/
import Idealize.ShloMosaic.PureOps.Ideal.Laws
import Idealize.ShloMosaic.Lib.ValueIdx

noncomputable section

namespace Idealize.ShloMosaic.PlainDot

open Idealize.ShloMosaic Idealize.ShloMosaic.ValueIdx

/-- A sum over `a + b + c` consecutive positions, cut into its three consecutive bands. -/
theorem sum_three_bands {M : Type} [AddCommMonoid M] {a b c n : ℕ} (hn : a + b + c = n) (f : Fin n → M) :
    ∑ k : Fin n, f k
      = (∑ k : Fin a, f ⟨k.val, by omega⟩) + (∑ k : Fin b, f ⟨a + k.val, by omega⟩)
        + ∑ k : Fin c, f ⟨a + b + k.val, by omega⟩ := by
  subst hn
  rw [Fin.sum_univ_add, Fin.sum_univ_add]
  rfl

/-- Entry (p, q) of an [a, K] × [K, b] product into the zero accumulator is the sum over the contracted position
    of the row's entry times the column's entry. -/
theorem matmul_zero_ix2 {a K b : ℕ} {φ₁ φ₂ : FTy}
    (d : DotDims (⟨2, ![a, K]⟩ : Shape) (⟨2, ![K, b]⟩ : Shape) (⟨2, ![a, b]⟩ : Shape))
    (hr : d.contr.rank = 1) (hs : d.contr.size ⟨0, by omega⟩ = K)
    (hlc : d.lhsContracting = [1]) (hrc : d.rhsContracting = [0])
    (hl0 : ∀ (j : (⟨2, ![a, b]⟩ : Shape).Idx) (q : d.contr.Idx), (d.lhsIdx j q 0).val = (j 0).val)
    (hr1 : ∀ (j : (⟨2, ![a, b]⟩ : Shape).Idx) (q : d.contr.Idx), (d.rhsIdx j q 1).val = (j 1).val)
    (prec : Option ContractPrecision)
    (lhs : FVec Ideal (⟨2, ![a, K]⟩ : Shape) φ₁) (rhs : FVec Ideal (⟨2, ![K, b]⟩ : Shape) φ₂) (p : Fin a) (q : Fin b) :
    FloatOps.matmul d prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun ax => Fin.ext (by
    match ax with
    | ⟨0, _⟩ => exact hl0 _ _
    | ⟨1, _⟩ => exact (d.lhsIdx_val_of_single hlc _ _).trans hk)
  have er : d.rhsIdx (ix2 p q) ((contrEquiv1 d K hr hs).symm k) = ix2 k q := funext fun ax => Fin.ext (by
    match ax with
    | ⟨0, _⟩ => exact (d.rhsIdx_val_of_single hrc _ _).trans hk
    | ⟨1, _⟩ => exact hr1 _ _)
  rw [el, er]

end Idealize.ShloMosaic.PlainDot

end
-- ==== Proof.Payload.lean ====
/-
  The value the kernel body stores, read at one entry.

  The body multiplies the block of index values (as reals) by a 0/1 matrix on the matrix unit, compares the product
  with one half, and selects lane by lane between two rows broadcast down the block. At entry (p, q) of the
  1024 × 1000 block this is: the entry of the second row at column q when  ∑ k, ids (p, k) · rep (k, q) > 1/2,
  and the entry of the first row at column q otherwise. The product is a plain finite sum on the extended reals;
  the two shape casts of the rows are identities and the broadcast reads row 0.
-/
import proofs.«144789_g11879879543700_cont_fleet_348_2_alg».proof.Proof.Gen.KernelIdeal.Skeleton
import proofs.«144789_g11879879543700_cont_fleet_348_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Idealize.ShloMosaic Idealize.ShloMosaic.ValueIdx Cert.KernelIdeal Cert.KernelIdeal.Gen

/-- Entry (p, q) of the stored block: a select on whether the row of index values, summed against column q of the
    0/1 matrix, exceeds one half. `hi` is the row read where the sum is larger, `lo` the other. -/
theorem stored_apply (ids : Vec Ideal S1024x200 .i32) (rep : Vec Ideal S200x1000 .bf16)
    (hi lo : Vec Ideal S1x1000 .f32) (p : Fin 1024) (q : Fin 1000) :
    k0_pay1 (F := Ideal) ids rep hi lo (ix2 p q)
      = Scalar.select
          (Ideal.cmp .ogt (∑ k : Fin 200, (((ids (ix2 p k)).toInt : ℝ) : EReal) * rep (ix2 k q))
            (Ideal.ofBits .f32 0x3F000000#32))
          (hi (ix2 (0 : Fin 1) q)) (lo (ix2 (0 : Fin 1) q)) := by
  unfold k0_pay1
  simp only [select_apply, cmpf_apply, broadcast_apply, shapeCast_self, matmul]
  rw [broadcastTo_1b_ab_apply, broadcastTo_1b_ab_apply]
  rw [PlainDot.matmul_zero_ix2 dot_S1024x200_S200x1000_S1024x1000_1_0_0_1_n_n rfl rfl rfl rfl
    (fun _ _ => rfl) (fun _ _ => rfl)]
  rfl

end Cert.KernelIdeal.BodyValue

end
-- ==== Proof.WholeArray.lean ====
/-
  The region's output array, 16384 × 1000, as ONE function of the four arrays the region reads.

  The grid has 16 points; point t stages rows 1024·t … 1024·t + 1023 of the index array and of the output array, and
  the whole of the three small arrays (their index maps are constant). So what point t writes back is the block of
  rows 1024·t … of the function

      out (r, q) = hi (0, q)   if  ∑ k < 200, ids (r, k) · rep (k, q)  >  1/2,     lo (0, q)  otherwise,

  where ids, rep, hi, lo are the arrays as the region finds them. The sixteen blocks tile the rows, row r lying in the
  block of point r / 1024, so the array ends holding `out` everywhere.
-/
import proofs.«144789_g11879879543700_cont_fleet_348_2_alg».proof.Proof.Gen.KernelIdeal.Frame
import proofs.«144789_g11879879543700_cont_fleet_348_2_alg».proof.Proof.Payload
import Idealize.ShloMosaic.Lib.ValueIdx
import Idealize.ShloMosaic.Lib.Pipeline.Value

noncomputable section

namespace Cert.KernelIdeal.WholeArray

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

theorem origin : (![0, 0] : Fin 2 → Nat) = fun _ => 0 := funext fun a => by fin_cases a <;> rfl

/-- Entry (r, q) of the output array from the four arrays the region reads. -/
def outAt (ids : S16384x200.Idx → BitVec 32) (rep : S200x1000.Idx → EReal) (hi lo : S1x1000.Idx → EReal)
    (r : Fin 16384) (q : Fin 1000) : EReal :=
  Scalar.select
    (Ideal.cmp .ogt (∑ k : Fin 200, (((ids (ix2 r k)).toInt : ℝ) : EReal) * rep (ix2 k q))
      (Ideal.ofBits .f32 0x3F000000#32))
    (hi (ix2 (0 : Fin 1) q)) (lo (ix2 (0 : Fin 1) q))

/-- The output array as one function of the arrays as the region finds them. -/
def out (c : Dev nD) : S16384x1000.Idx → EReal := fun i =>
  outAt (V m c main_arg0) (V m c main_v8) (V m c main_v20) (V m c main_v14) (i 0) (i 1)

/-- The printed index maps over the grid: the index array's and the output's block row is the point, every other
    block index is 0. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The body's stored block at point `t`, entry (p, q), when the four staged blocks are the blocks of ANY four arrays:
    entry (1024 t + p, q) of the whole-array function of those arrays. (The arrays are variables here: the block
    arithmetic never looks inside them.) -/
theorem block_value (A0 : S16384x200.Idx → BitVec 32) (A1 : S200x1000.Idx → EReal) (A2 A3 : S1x1000.Idx → EReal)
    (t : Fin cfg0.N) (p : Fin 1024) (q : Fin 1000) (hr : t.val * 1024 + p.val < 16384) :
    k0_pay1 (F := Ideal) (((cfg0.win 0).blk t).view.read (Elt Ideal) A0) (((cfg0.win 1).blk t).view.read (Elt Ideal) A1)
        (((cfg0.win 3).blk t).view.read (Elt Ideal) A3) (((cfg0.win 2).blk t).view.read (Elt Ideal) A2) (ix2 p q)
      = outAt A0 A1 A3 A2 (⟨t.val * 1024 + p.val, hr⟩ : Fin 16384) q := by
  obtain ⟨a0, a1, b0, b1, c0, c1, d0, d1, -, -⟩ := index_maps t
  refine (BodyValue.stored_apply _ _ _ _ p q).trans ?_
  unfold outAt
  have rd0 : ∀ k : Fin 200, ((cfg0.win 0).blk t).view.read (Elt Ideal) A0 (ix2 p k)
      = A0 (ix2 (⟨t.val * 1024 + p.val, hr⟩ : Fin 16384) k) := by
    intro k
    show A0 (((cfg0.win 0).blk t).view.emb (ix2 p k)) = _
    refine congrArg A0 ?_
    funext a; apply Fin.ext
    match a with
    | ⟨0, _⟩ => show win0_0.index t (0 : Fin 2) * 1024 + 1 * p.val = t.val * 1024 + p.val; omega
    | ⟨1, _⟩ => show win0_0.index t (1 : Fin 2) * 200 + 1 * k.val = k.val; omega
  have rd1 : ∀ k : Fin 200, ((cfg0.win 1).blk t).view.read (Elt Ideal) A1 (ix2 k q) = A1 (ix2 k q) := by
    intro k
    show A1 (((cfg0.win 1).blk t).view.emb (ix2 k q)) = _
    refine congrArg A1 ?_
    funext a; apply Fin.ext
    match a with
    | ⟨0, _⟩ => show win0_1.index t (0 : Fin 2) * 200 + 1 * k.val = k.val; omega
    | ⟨1, _⟩ => show win0_1.index t (1 : Fin 2) * 1000 + 1 * q.val = q.val; omega
  have rd2 : ((cfg0.win 2).blk t).view.read (Elt Ideal) A2 (ix2 (0 : Fin 1) q) = A2 (ix2 (0 : Fin 1) q) := by
    show A2 (((cfg0.win 2).blk t).view.emb (ix2 (0 : Fin 1) q)) = _
    refine congrArg A2 ?_
    funext a; apply Fin.ext
    match a with
    | ⟨0, _⟩ => show win0_2.index t (0 : Fin 2) * 1 + 1 * 0 = 0; omega
    | ⟨1, _⟩ => show win0_2.index t (1 : Fin 2) * 1000 + 1 * q.val = q.val; omega
  have rd3 : ((cfg0.win 3).blk t).view.read (Elt Ideal) A3 (ix2 (0 : Fin 1) q) = A3 (ix2 (0 : Fin 1) q) := by
    show A3 (((cfg0.win 3).blk t).view.emb (ix2 (0 : Fin 1) q)) = _
    refine congrArg A3 ?_
    funext a; apply Fin.ext
    match a with
    | ⟨0, _⟩ => show win0_3.index t (0 : Fin 2) * 1 + 1 * 0 = 0; omega
    | ⟨1, _⟩ => show win0_3.index t (1 : Fin 2) * 1000 + 1 * q.val = q.val; omega
  rw [rd2, rd3]
  refine congrArg (fun s => Scalar.select (Ideal.cmp .ogt s (Ideal.ofBits .f32 0x3F000000#32))
    (A3 (ix2 (0 : Fin 1) q)) (A2 (ix2 (0 : Fin 1) q))) ?_
  exact Finset.sum_congr rfl fun k _ => by rw [rd0 k, rd1 k]

/-- Where the output window's block at point `t` puts its entry (p, q): row 1024 t + p, column q. -/
theorem out_block_emb (t : Fin cfg0.N) (p : Fin 1024) (q : Fin 1000) (hr : t.val * 1024 + p.val < 16384) :
    ((cfg0.win 4).blk t).view.emb (ix2 p q) = ix2 (⟨t.val * 1024 + p.val, hr⟩ : Fin 16384) q := by
  obtain ⟨-, -, -, -, -, -, -, -, e0, e1⟩ := index_maps t
  funext a; apply Fin.ext
  match a with
  | ⟨0, _⟩ => show win0_4.index t (0 : Fin 2) * 1024 + 1 * p.val = t.val * 1024 + p.val; omega
  | ⟨1, _⟩ => show win0_4.index t (1 : Fin 2) * 1000 + 1 * q.val = q.val; omega

/-- ANY array read through the output window's block at point `t`, at entry (p, q), is the array at row 1024 t + p,
    column q. -/
theorem read_out_block (G : S16384x1000.Idx → EReal) (t : Fin cfg0.N) (p : Fin 1024) (q : Fin 1000)
    (hr : t.val * 1024 + p.val < 16384) :
    ((cfg0.win 4).blk t).view.read (Elt Ideal) G (ix2 p q) = G (ix2 (⟨t.val * 1024 + p.val, hr⟩ : Fin 16384) q) := by
  show G (((cfg0.win 4).blk t).view.emb (ix2 p q)) = _
  rw [out_block_emb t p q hr]

/-- What point `t` writes back is block `t` of `out`. -/
theorem flushed_eq (c : Dev nD) (t : Fin cfg0.N) :
    (dats (F := Ideal) m 0 c).flushed 4 t = ((cfg0.win 4).blk t).view.read (Elt Ideal) (out m c) := by
  show (cfg0.win 4).cut (grid0.coords t) ((dats (F := Ideal) m 0 c).after 4 t) = _
  rw [after0_4]
  unfold out0_4
  rw [View.canon_unit_zero origin]
  simp only [View.ld_unit_zero (S := S1024x200) origin, View.ld_unit_zero (S := S200x1000) origin,
    View.ld_unit_zero (S := S1x1000) origin]
  have hN : t.val < 16 := by
    have h := t.isLt
    have e : cfg0.N = 16 := N_0
    omega
  refine funext fun (j : S1024x1000.Idx) => ?_
  obtain ⟨p, q, rfl⟩ : ∃ (p : Fin 1024) (q : Fin 1000), j = ix2 p q := ⟨j 0, j 1, eq_ix2 j⟩
  have hr : t.val * 1024 + p.val < 16384 := by have := p.isLt; omega
  refine (block_value (V m c main_arg0) (V m c main_v8) (V m c main_v14) (V m c main_v20) t p q hr).trans ?_
  refine Eq.trans ?_ (read_out_block (out m c) t p q hr).symm
  unfold out
  rfl

/-- An index of the array is in point `t`'s block iff each coordinate is in the block's range on its axis. -/
theorem mem_blk (t : Fin cfg0.N) (i : S16384x1000.Idx) :
    i ∈ ((cfg0.win 4).blk t).view.set ↔ ∀ a : Fin 2, win0_4.index t a * S1024x1000.size a ≤ (i a).val
      ∧ (i a).val < win0_4.index t a * S1024x1000.size a + S1024x1000.size a := by
  show i ∈ ((View.whole main_v21).slice (win0_4.rect t)).set ↔ _
  rw [View.set_slice_whole, Rect.mem_set_unit]
  exact Iff.rfl

/-- Row r lies in the block of point r / 1024: the sixteen blocks tile the array. -/
theorem cover (i : S16384x1000.Idx) :
    ∃ t : Fin cfg0.N, (cfg0.win 4).flush t = true ∧ i ∈ ((cfg0.win 4).blk t).view.set := by
  have hi0 : (i 0).val < 16384 := (i 0).isLt
  have hi1 : (i 1).val < 1000 := (i 1).isLt
  have hN : cfg0.N = 16 := N_0
  have ht : (i 0).val / 1024 < cfg0.N := by rw [hN]; omega
  obtain ⟨-, -, -, -, -, -, -, -, e0, e1⟩ := index_maps ⟨(i 0).val / 1024, ht⟩
  refine ⟨⟨(i 0).val / 1024, ht⟩, flush0_4 _, ?_⟩
  rw [mem_blk]
  intro a
  match a with
  | ⟨0, _⟩ =>
    show win0_4.index ⟨(i 0).val / 1024, ht⟩ (0 : Fin 2) * 1024 ≤ (i 0).val
      ∧ (i 0).val < win0_4.index ⟨(i 0).val / 1024, ht⟩ (0 : Fin 2) * 1024 + 1024
    have e0' : win0_4.index ⟨(i 0).val / 1024, ht⟩ (0 : Fin 2) = (i 0).val / 1024 := e0
    omega
  | ⟨1, _⟩ =>
    show win0_4.index ⟨(i 0).val / 1024, ht⟩ (1 : Fin 2) * 1000 ≤ (i 1).val
      ∧ (i 1).val < win0_4.index ⟨(i 0).val / 1024, ht⟩ (1 : Fin 2) * 1000 + 1000
    omega

/-- The output array after the run is `out`. -/
theorem final (c : Dev nD) : (dats (F := Ideal) m 0 c).arrAt 4 cfg0.N = out m c :=
  (dats (F := Ideal) m 0 c).arrAt_eq_of_cover 4 (out m c) (fun t _ => flushed_eq m c t) cover

end Cert.KernelIdeal.WholeArray

end
-- ==== Proof.LibHostLayout.lean ====
/-
  Layout operations of a host program read at ix-coordinates, over any extents and any element type.

  * broadcast_in_dim of a column [a, 1] across b columns (dims [0, 1]) reads the column's entry of that row;
  * broadcast_in_dim of a vector [a] kept as a column [a, 1] (dims [0]) reads the vector's entry of that row;
  * broadcast_in_dim of a vector [b] kept as a row [1, b] (dims [1]) reads the vector's entry of that column;
  * a reshape of [a, b] to the flat [n], n = a · b, reads at position q the entry (q / b, q % b);
  * a reshape of [a, n] to [a, b, c], n = b · c, reads at (i, j, d) the entry (i, j · c + d).
  Each is the row-major position of the two indices being the same number.
-/
import Idealize.ShloMosaic.Lib.ValueIdx
import Idealize.ShloMosaic.Lib.Pipeline.Value

noncomputable section

namespace Idealize.ShloMosaic.HostLayout

open Idealize.ShloMosaic Idealize.ShloMosaic.ValueIdx

variable {α : Type}

/-- A column broadcast across `b` columns, read at (r, t), is the column's entry of row r. -/
theorem broadcastInDim_col_apply {a b : ℕ} (h : (⟨2, ![a, 1]⟩ : Shape).BroadcastsInDim ⟨2, ![a, b]⟩ ![0, 1])
    (y : (⟨2, ![a, 1]⟩ : Shape).Idx → α) (r : Fin a) (t : Fin b) :
    broadcastInDim ⟨2, ![a, b]⟩ ![0, 1] h y (ix2 r t) = y (ix2 r (0 : Fin 1)) := by
  refine broadcastInDim_apply ![0, 1] h y (ix2 r t) (ix2 r (0 : Fin 1)) ?_
  intro ax
  fin_cases ax
  · show r.val = if a = 1 then 0 else r.val
    split_ifs with ha
    · have := r.isLt; omega
    · rfl
  · show (0 : ℕ) = if (1 : ℕ) = 1 then 0 else _
    simp

/-- A vector kept as a column, read at (r, 0), is the vector's entry r. -/
theorem broadcastInDim_vec_col_apply {a : ℕ} (h : (⟨1, ![a]⟩ : Shape).BroadcastsInDim ⟨2, ![a, 1]⟩ ![0])
    (y : (⟨1, ![a]⟩ : Shape).Idx → α) (r : Fin a) :
    broadcastInDim ⟨2, ![a, 1]⟩ ![0] h y (ix2 r (0 : Fin 1)) = y (ix1 r) := by
  refine broadcastInDim_apply ![0] h y (ix2 r (0 : Fin 1)) (ix1 r) ?_
  intro ax
  fin_cases ax
  show r.val = if a = 1 then 0 else r.val
  split_ifs with ha
  · have := r.isLt; omega
  · rfl

/-- A vector kept as a row, read at (0, t), is the vector's entry t. -/
theorem broadcastInDim_vec_row_apply {b : ℕ} (h : (⟨1, ![b]⟩ : Shape).BroadcastsInDim ⟨2, ![1, b]⟩ ![1])
    (y : (⟨1, ![b]⟩ : Shape).Idx → α) (t : Fin b) :
    broadcastInDim ⟨2, ![1, b]⟩ ![1] h y (ix2 (0 : Fin 1) t) = y (ix1 t) := by
  refine broadcastInDim_apply ![1] h y (ix2 (0 : Fin 1) t) (ix1 t) ?_
  intro ax
  fin_cases ax
  show t.val = if b = 1 then 0 else t.val
  split_ifs with hb
  · have := t.isLt; omega
  · rfl

/-- A matrix flattened row by row: position q reads the entry (q / b, q % b). -/
theorem shapeCast_flatten_apply {a b n : ℕ} (hb : 0 < b)
    (h : (⟨2, ![a, b]⟩ : Shape).ShapeCasts ⟨1, ![n]⟩) (x : (⟨2, ![a, b]⟩ : Shape).Idx → α)
    (q : Fin n) (hq : q.val / b < a) :
    shapeCast ⟨1, ![n]⟩ x h (ix1 q) = x (ix2 ⟨q.val / b, hq⟩ ⟨q.val % b, Nat.mod_lt _ hb⟩) := by
  refine shapeCast_apply x h (ix1 q) _ ?_
  rw [Shape.rowMajor_val_two, Shape.rowMajor_val_one]
  show q.val / b * b + q.val % b = q.val
  exact Nat.div_add_mod' _ _

/-- The last axis split in two: entry (i, j, d) reads the entry (i, j · c + d). -/
theorem shapeCast_split_last_apply {a b c n : ℕ} (hn : n = b * c)
    (h : (⟨2, ![a, n]⟩ : Shape).ShapeCasts ⟨3, ![a, b, c]⟩) (x : (⟨2, ![a, n]⟩ : Shape).Idx → α)
    (i : Fin a) (j : Fin b) (d : Fin c) (hlt : j.val * c + d.val < n) :
    shapeCast ⟨3, ![a, b, c]⟩ x h (ix3 i j d) = x (ix2 i ⟨j.val * c + d.val, hlt⟩) := by
  refine shapeCast_apply x h (ix3 i j d) _ ?_
  rw [Shape.rowMajor_val_two, Shape.rowMajor_val_three]
  show i.val * n + (j.val * c + d.val) = (i.val * b + j.val) * c + d.val
  rw [hn]; ring

end Idealize.ShloMosaic.HostLayout

end
-- ==== Proof.FloorDiv.lean ====
/-
  The host's floor division of a small non-negative word by 5.

  jnp's floor_divide on 32-bit integers is printed as: the quotient rounded toward zero, minus 1 where the operands'
  signs differ and the remainder is not zero. For a dividend 0 <= q < 1000 and the divisor 5 the correction never
  applies (the signs differ only at q = 0, where the remainder is 0), and the rounded-toward-zero quotient of two
  non-negative words is the natural-number quotient. The thousand cases are decided by evaluation.
  A second fact: two words built from naturals below 1000 are equal exactly when the naturals are.
-/
import Idealize.ShloMosaic.PureOps

noncomputable section

namespace Cert.FloorDiv

open Idealize.ShloMosaic

/-- The sign of a word as a word: 0, -1 or 1. -/
def sgn (x : BitVec 32) : BitVec 32 := if x = 0 then 0 else if x.msb then -1 else 1

/-- The printed floor division by 5 of one word. -/
def floorDiv5 (x : BitVec 32) : BitVec 32 :=
  Scalar.select
    (IntOp.andi (IntOp.cmpi .ne (sgn x) (sgn 5#32)) (IntOp.cmpi .ne (IntOp.remsi .host x 5#32) 0#32))
    (IntOp.subi (IntOp.divsi .host x 5#32) 1#32)
    (IntOp.divsi .host x 5#32)

/-- On 0 <= q < 1000 it is the natural quotient. -/
theorem floorDiv5_ofNat : ∀ q : Fin 1000, floorDiv5 (BitVec.ofNat 32 q.val) = BitVec.ofNat 32 (q.val / 5) := by
  decide +kernel

/-- Words of small naturals are equal exactly when the naturals are. -/
theorem ofNat_eq_iff {a b : ℕ} (ha : a < 1000) (hb : b < 1000) : BitVec.ofNat 32 a = BitVec.ofNat 32 b ↔ a = b := by
  constructor
  · intro h
    have := congrArg BitVec.toNat h
    simp only [BitVec.toNat_ofNat] at this
    omega
  · rintro rfl; rfl

end Cert.FloorDiv

end
-- ==== Proof.HostArrays.lean ====
/-
  What the host operations before the region leave in the three arrays they build, read at one entry.

  * The repeat matrix, 200 × 1000: entry (k, q) is 1 when  q / 5 = k  and 0 otherwise. It is the comparison of
    floor(q / 5) (a row of column numbers divided by 5) with k (a column of row numbers), converted to a float.
  * The two tiled rows, 1 × 1000: entry (0, q) of the first is  W (0, q % 5)  and of the second  W (1, q % 5) : a row
    of the table repeated 200 times and flattened.
  The index array itself is not written by any host operation.
-/
import proofs.«144789_g11879879543700_cont_fleet_348_2_alg».proof.Proof.Gen.KernelIdeal.Frame
import proofs.«144789_g11879879543700_cont_fleet_348_2_alg».proof.Proof.LibHostLayout
import proofs.«144789_g11879879543700_cont_fleet_348_2_alg».proof.Proof.FloorDiv
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import Idealize.ShloMosaic.Lib.StableHlo.Run

noncomputable section

namespace Cert.KernelIdeal.HostArrays

open Idealize.ShloMosaic Idealize.ShloMosaic.ValueIdx Idealize.ShloMosaic.TcCoe Idealize.SL.Sem
open Cert.KernelIdeal Cert.KernelIdeal.Gen Idealize.ShloMosaic.StableHlo

variable (m : (ℓ : Loc nD τ sig) → Buf (Elt Ideal) ℓ)

/-- The float of a one-bit equality test of two small words is the indicator of the naturals being equal. -/
theorem indicator_word {a b : ℕ} (ha : a < 1000) (hb : b < 1000) :
    FloatOps.uitofp (F := Ideal) .bf16 (IntOp.cmpi .eq (BitVec.ofNat 32 a) (BitVec.ofNat 32 b))
      = if a = b then (1 : EReal) else 0 := by
  by_cases h : a = b
  · subst h
    rw [if_pos rfl]
    show (((BitVec.ofBool (BitVec.ofNat 32 a == BitVec.ofNat 32 a)).toNat : ℝ) : EReal) = 1
    simp
  · rw [if_neg h]
    have hne : (BitVec.ofNat 32 a == BitVec.ofNat 32 b) = false := by
      rw [beq_eq_false_iff_ne]
      exact fun e => h ((Cert.FloorDiv.ofNat_eq_iff ha hb).1 e)
    show (((BitVec.ofBool (BitVec.ofNat 32 a == BitVec.ofNat 32 b)).toNat : ℝ) : EReal) = 0
    rw [hne]
    simp

set_option maxHeartbeats 2000000 in
/-- The repeat matrix at (k, q): 1 when q / 5 = k, else 0. -/
theorem repeat_apply (c : Dev nD) (k : Fin 200) (q : Fin 1000) :
    (V m c main_v8 : S200x1000.Idx → EReal) (ix2 k q) = if q.val / 5 = k.val then (1 : EReal) else 0 := by
  dsimp only [Gen.V, Gen.V0]
  simp only [Gen.hostOps0, Gen.hostOps0_1, Gen.hostOps0_2, List.flatten_cons, List.flatten_nil, List.append_nil,
    List.cons_append, List.nil_append]
  after_results_simp
  simp only [TRef.ofBuf, TRef.toBuf, cast_eq, id]
  simp only [uitofp, cmpi, select, andi, subi, signi, Host.divsi, Host.remsi]
  rw [broadcastInDim_oneRow_apply, HostLayout.broadcastInDim_col_apply, HostLayout.broadcastInDim_vec_col_apply]
  simp only [broadcastInDim_scalar_apply, HostLayout.broadcastInDim_vec_row_apply, iotaInDim_apply, constantI_apply]
  show FloatOps.uitofp (F := Ideal) .bf16
      (IntOp.cmpi .eq (Cert.FloorDiv.floorDiv5 (BitVec.ofNat 32 q.val)) (BitVec.ofNat 32 k.val)) = _
  rw [Cert.FloorDiv.floorDiv5_ofNat q]
  exact indicator_word (by have := q.isLt; omega) (by have := k.isLt; omega)

set_option maxHeartbeats 2000000 in
/-- The first tiled row at (0, q): row 0 of the table at column q % 5. -/
theorem row0_apply (c : Dev nD) (q : Fin 1000) :
    (V m c main_v14 : S1x1000.Idx → EReal) (ix2 (0 : Fin 1) q)
      = (m ((c.tc : Thread nD τ).loc main_arg1) : S2x5.Idx → EReal)
          (ix2 (0 : Fin 2) (⟨q.val % 5, Nat.mod_lt _ (by decide)⟩ : Fin 5)) := by
  dsimp only [Gen.V, Gen.V0]
  simp only [Gen.hostOps0, Gen.hostOps0_1, Gen.hostOps0_2, List.flatten_cons, List.flatten_nil, List.append_nil,
    List.cons_append, List.nil_append]
  after_results_simp
  refine (HostLayout.broadcastInDim_vec_row_apply _ _ q).trans ?_
  refine (HostLayout.shapeCast_flatten_apply (a := 200) (b := 5) (n := 1000) (by decide) _ _ q
    (by have := q.isLt; omega)).trans ?_
  refine (broadcastInDim_oneRow_apply _ _ _ _).trans ?_
  refine (shapeCast_a_1a_apply _ _ _ _).trans ?_
  refine (shapeCast_1a_a_apply _ _ _).trans ?_
  exact slice2_axis0_apply 0 _ _ _ _ (0 : Fin 2) (by simp)

set_option maxHeartbeats 2000000 in
/-- The second tiled row at (0, q): row 1 of the table at column q % 5. -/
theorem row1_apply (c : Dev nD) (q : Fin 1000) :
    (V m c main_v20 : S1x1000.Idx → EReal) (ix2 (0 : Fin 1) q)
      = (m ((c.tc : Thread nD τ).loc main_arg1) : S2x5.Idx → EReal)
          (ix2 (1 : Fin 2) (⟨q.val % 5, Nat.mod_lt _ (by decide)⟩ : Fin 5)) := by
  dsimp only [Gen.V, Gen.V0]
  simp only [Gen.hostOps0, Gen.hostOps0_1, Gen.hostOps0_2, List.flatten_cons, List.flatten_nil, List.append_nil,
    List.cons_append, List.nil_append]
  after_results_simp
  refine (HostLayout.broadcastInDim_vec_row_apply _ _ q).trans ?_
  refine (HostLayout.shapeCast_flatten_apply (a := 200) (b := 5) (n := 1000) (by decide) _ _ q
    (by have := q.isLt; omega)).trans ?_
  refine (broadcastInDim_oneRow_apply _ _ _ _).trans ?_
  refine (shapeCast_a_1a_apply _ _ _ _).trans ?_
  refine (shapeCast_1a_a_apply _ _ _).trans ?_
  exact slice2_axis0_apply 1 _ _ _ _ (1 : Fin 2) (by simp)

end Cert.KernelIdeal.HostArrays

end
-- ==== Proof.Indicator.lean ====
/-
  Three facts about choosing by a 0/1 value, on the extended reals.

  * The 32-bit float word 0x3F000000 is one half.
  * A finite sum whose k-th term is  f k · g k , where g is the indicator of one position k₀ (1 there, 0 elsewhere),
    is f k₀: every other term is f k · 0 = 0, which holds for EVERY extended real f k, infinite ones included, so no
    finiteness is needed.
  * A 32-bit word that is 0 or 1, read as a signed integer and then as a real, is larger than one half exactly
    when it is the word 1.
-/
import Idealize.ShloMosaic.PureOps.Ideal
import Idealize.ShloMosaic.Lib.ValueIdx

noncomputable section

namespace Cert.Indicator

open Idealize.ShloMosaic

/-- The float word 0x3F000000 denotes one half. -/
theorem half_word : Ideal.ofBits .f32 0x3F000000#32 = ((1 / 2 : ℝ) : EReal) := by
  simp [Ideal.ofBits, Ideal.ieee, -EReal.coe_mul]; norm_num

/-- A sum against the indicator of one position is the term at that position. -/
theorem sum_mul_indicator {n : ℕ} (f g : Fin n → EReal) (k₀ : Fin n)
    (hg : ∀ k, g k = if k = k₀ then 1 else 0) : ∑ k : Fin n, f k * g k = f k₀ := by
  rw [Finset.sum_eq_single k₀]
  · rw [hg, if_pos rfl, mul_one]
  · intro k _ hk
    rw [hg, if_neg hk, mul_zero]
  · intro h
    exact absurd (Finset.mem_univ _) h

/-- A 0/1 word, as a real, exceeds one half exactly when it is the word 1. -/
theorem gt_half_of_bit (v : BitVec 32) (h : v = 0#32 ∨ v = 1#32) :
    Ideal.cmp .ogt (((v.toInt : ℝ) : EReal)) (Ideal.ofBits .f32 0x3F000000#32)
      = if v = 1#32 then 1#1 else 0#1 := by
  rw [half_word]
  rcases h with rfl | rfl
  · have z : ((0#32 : BitVec 32).toInt : ℝ) = 0 := by norm_num [show (0#32 : BitVec 32).toInt = 0 by decide]
    rw [z, if_neg (by decide)]
    unfold Ideal.cmp
    have : ¬ (((1 / 2 : ℝ) : EReal) < ((0 : ℝ) : EReal)) := by
      rw [EReal.coe_lt_coe_iff]; norm_num
    simp only [this, decide_false]
    rfl
  · have z : ((1#32 : BitVec 32).toInt : ℝ) = 1 := by norm_num [show (1#32 : BitVec 32).toInt = 1 by decide]
    rw [z, if_pos rfl]
    unfold Ideal.cmp
    have : (((1 / 2 : ℝ) : EReal) < ((1 : ℝ) : EReal)) := by
      rw [EReal.coe_lt_coe_iff]; norm_num
    simp only [this, decide_true]
    rfl

end Cert.Indicator

end
-- ==== Proof.KernelValue.lean ====
/-
  The kernel program's result, 16384 × 200 × 5, and its value at one entry.

  After the region one host operation splits the last axis of the 16384 × 1000 output array in two, so entry
  (i, j, d) of the result is entry (i, 5 j + d) of the output array. There the repeat matrix's column 5 j + d is the
  indicator of row j (because (5 j + d) / 5 = j), so the sum over k of  ids (i, k) · rep (k, 5 j + d)  is the single
  term ids (i, j); the two tiled rows read  W (1, d)  and  W (0, d)  (because (5 j + d) % 5 = d). When ids (i, j) is the
  word 0 or 1, comparing it with one half picks the word 1, so the entry is  W (ids (i, j), d).
-/
import proofs.«144789_g11879879543700_cont_fleet_348_2_alg».proof.Proof.Gen.KernelIdeal.Frame
import proofs.«144789_g11879879543700_cont_fleet_348_2_alg».proof.Proof.WholeArray
import proofs.«144789_g11879879543700_cont_fleet_348_2_alg».proof.Proof.HostArrays
import proofs.«144789_g11879879543700_cont_fleet_348_2_alg».proof.Proof.Indicator
import proofs.«144789_g11879879543700_cont_fleet_348_2_alg».proof.Proof.LibHostLayout
import Idealize.ShloMosaic.Lib.ValueIdx
import Idealize.ShloMosaic.Lib.Pipeline.Value
import Idealize.ShloMosaic.Lib.StableHlo.Run

noncomputable section

namespace Cert.KernelIdeal.KernelValue

open Idealize.ShloMosaic Idealize.ShloMosaic.ValueIdx Idealize.ShloMosaic.TcCoe Idealize.SL.Sem
open Cert.KernelIdeal Cert.KernelIdeal.Gen Idealize.ShloMosaic.StableHlo

variable (m : (ℓ : Loc nD τ sig) → Buf (Elt Ideal) ℓ)

/-- The program's result: the region's output array with its last axis split in two. -/
def result (c : Dev nD) : S16384x200x5.Idx → EReal :=
  shapeCast S16384x200x5 (WholeArray.out m c) shapeCasts_S16384x1000_S16384x200x5

/-- What the host operation after the region leaves in the result buffer. -/
theorem tail_eq (c : Dev nD) :
    Pipeline.afterTail₀ cfgs (dats (F := Ideal) m) 0 (V0 m) [hostOps1] c main_v22 = result m c := by
  unfold Pipeline.afterTail₀
  show StableHlo.after hostOps1 _ (Proc.devRef .tc main_v22) = _
  after_results
  unfold result
  refine congrArg (fun x => shapeCast S16384x200x5 x shapeCasts_S16384x1000_S16384x200x5) ?_
  exact (Pipeline.withArrays_arr spec0 launch0.win.arr_inj c _ _ 4).trans (WholeArray.final m c)

/-- Every weakly fair execution of the program terminates with the result buffer at `result` and the two argument
    arrays unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v22) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v22 (Pipeline.mem_restRefs_of main_v22 (by decide) (by decide))).trans (tail_eq m c),
     ((h c).1 0).trans (((dats (F := Ideal) m 0 c).arrAt_in 0 rfl _).trans ((A_eq m c 0).trans (V_main_arg0 m c))),
     ((h c).2 main_arg1 (Pipeline.mem_restRefs_of main_arg1 (by decide) (by decide))).trans
       (W_main_arg1 m (dats (F := Ideal) m) c)⟩)
    (run_main m ρ)

/-- Entry (i, j, d) of the result, when the index entry (i, j) is the word 0 or 1: the table's row of that index. -/
theorem result_apply (c : Dev nD) (i : Fin 16384) (j : Fin 200) (d : Fin 5)
    (h : (m ((c.tc : Thread nD τ).loc main_arg0) : S16384x200.Idx → BitVec 32) (ix2 i j) = 0#32
       ∨ (m ((c.tc : Thread nD τ).loc main_arg0) : S16384x200.Idx → BitVec 32) (ix2 i j) = 1#32) :
    result m c (ix3 i j d)
      = (m ((c.tc : Thread nD τ).loc main_arg1) : S2x5.Idx → EReal)
          (ix2 (if (m ((c.tc : Thread nD τ).loc main_arg0) : S16384x200.Idx → BitVec 32) (ix2 i j) = 1#32
                then (1 : Fin 2) else 0) d) := by
  have hq : j.val * 5 + d.val < 1000 := by have := j.isLt; have := d.isLt; omega
  have hdiv : (j.val * 5 + d.val) / 5 = j.val := by have := d.isLt; omega
  have hmod : (j.val * 5 + d.val) % 5 = d.val := by have := d.isLt; omega
  unfold result
  refine (HostLayout.shapeCast_split_last_apply (a := 16384) (b := 200) (c := 5) (n := 1000) rfl _ _ i j d hq).trans ?_
  show WholeArray.outAt (V m c main_arg0) (V m c main_v8) (V m c main_v20) (V m c main_v14) i
    (⟨j.val * 5 + d.val, hq⟩ : Fin 1000) = _
  unfold WholeArray.outAt
  -- the sum collapses to the term of row j
  have hsum : (∑ k : Fin 200, ((((V m c main_arg0 : S16384x200.Idx → BitVec 32) (ix2 i k)).toInt : ℝ) : EReal)
        * (V m c main_v8 : S200x1000.Idx → EReal) (ix2 k (⟨j.val * 5 + d.val, hq⟩ : Fin 1000)))
      = ((((V m c main_arg0 : S16384x200.Idx → BitVec 32) (ix2 i j)).toInt : ℝ) : EReal) :=
    Cert.Indicator.sum_mul_indicator _ _ j (fun k => by
      rw [HostArrays.repeat_apply m c k ⟨j.val * 5 + d.val, hq⟩]
      show (if (j.val * 5 + d.val) / 5 = k.val then (1 : EReal) else 0) = if k = j then 1 else 0
      rw [hdiv]
      by_cases hk : k = j
      · subst hk; rw [if_pos rfl, if_pos rfl]
      · rw [if_neg hk, if_neg (fun e => hk (Fin.ext e.symm))])
  rw [hsum, HostArrays.row1_apply m c ⟨j.val * 5 + d.val, hq⟩, HostArrays.row0_apply m c ⟨j.val * 5 + d.val, hq⟩,
    V_main_arg0 m c]
  rw [Cert.Indicator.gt_half_of_bit _ h]
  have hd : (⟨(j.val * 5 + d.val) % 5, Nat.mod_lt _ (by decide)⟩ : Fin 5) = d := Fin.ext hmod
  rw [hd]
  have ne01 : ¬ ((0#32 : BitVec 32) = 1#32) := by decide
  rcases h with h | h
  · rw [h, if_neg ne01, if_neg ne01]
    exact select_zero _ _
  · rw [h, if_pos rfl, if_pos rfl]
    exact select_one _ _

end Cert.KernelIdeal.KernelValue

end
-- ==== Proof.RefRun.lean ====
import proofs.«144789_g11879879543700_cont_fleet_348_2_alg».proof.Proof.Gen.ReferenceIdeal
import Idealize.ShloMosaic.Lib.StableHlo.Run
import Idealize.ShloMosaic.PureOps.Ideal

/-!
# The reference program's run, read back as one pure function

The reference's @main is a single call of the outlined gather-with-bounds-check function, which itself
calls the outlined three-way select. Both bodies are straight lines of host operations, so the whole
program is one straight line of twenty-four operations; this module lists them, shows that @main is
that line, and reads the line's fold at the result buffer and at the two argument buffers.
-/

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The index with a negative value wrapped once: `ids < 0 ? ids + 2 : ids`, entry by entry. -/
def wrapped (ids : IVec S16384x200 32) : IVec S16384x200 32 :=
  select (cmpi .slt ids (broadcastInDim S16384x200 ![] bcast_S_S16384x200 (constantI S_ 32 0#32)))
    (addi ids (broadcastInDim S16384x200 ![] bcast_S_S16384x200 (constantI S_ 32 2#32))) ids

/-- The wrapped index with a trailing unit axis: the gather's index vector of length one. -/
def idx3 (ids : IVec S16384x200 32) : IVec S16384x200x1 32 :=
  broadcastInDim S16384x200x1 ![0, 1] bcast_S16384x200_S16384x200x1_0_1 (wrapped ids)

/-- Whether the wrapped index lies in `[0, 1]`: the conjunction `0 ≤ idx ∧ idx ≤ 1`, and-reduced over the unit axis. -/
def inRange (ids : IVec S16384x200 32) : IVec S16384x200 1 :=
  Host.reduce IntOp.andi
    (andi (cmpi .sge (idx3 ids) (broadcastInDim S16384x200x1 ![] bcast_S_S16384x200x1 (constantI S_ 32 0#32)))
      (cmpi .sle (idx3 ids)
        (broadcastInDim S16384x200x1 ![0, 1, 2] bcast_S1x1x1_S16384x200x1_0_1_2
          (broadcastInDim S1x1x1 ![2] bcast_S1_S1x1x1_2 (constantI S1 32 1#32)))))
    (constantI S_ 1 1#1) reducesTo_S16384x200x1_S16384x200_d2 h_S_

/-- The reference's result as one pure function of its two argument arrays: the row of `W` the wrapped index
    names where that index is in range, the not-a-number literal elsewhere. -/
def refTerm (ids : IVec S16384x200 32) (W : FVec Ideal S2x5 .f32) : FVec Ideal S16384x200x5 .f32 :=
  select (broadcastInDim S16384x200x5 ![0, 1] bcast_S16384x200_S16384x200x5_0_1 (inRange ids))
    (Host.gather gather_S2x5_S16384x200x1_S16384x200x5_2_0_n_n_0_2_15 W (idx3 ids))
    (broadcastInDim S16384x200x5 ![] bcast_S_S16384x200x5 (constant (F := Ideal) S_ .f32 0x7FC00000#32))

/-- @main's twenty-four operations in order, the two calls unfolded: each operation of the outer function at the
    buffer the outer call's record gives its value, the inner select at the inner call's. -/
abbrev ops : List (HloOp τ sig (Elt F)) :=
  [ nullary main_call0_c (constantI S_ 32 0#32 : (⟨S_, .i32⟩ : BufTy).Contents (Elt F)),
    unary main_call0_c main_call0_v0 (broadcastInDim S16384x200 ![] bcast_S_S16384x200 : (⟨S_, .i32⟩ : BufTy).Contents (Elt F) → (⟨S16384x200, .i32⟩ : BufTy).Contents (Elt F)),
    binary main_arg0 main_call0_v0 main_call0_v1 (cmpi .slt : (⟨S16384x200, .i32⟩ : BufTy).Contents (Elt F) → (⟨S16384x200, .i32⟩ : BufTy).Contents (Elt F) → (⟨S16384x200, .i1⟩ : BufTy).Contents (Elt F)),
    nullary main_call0_c_0 (constantI S_ 32 2#32 : (⟨S_, .i32⟩ : BufTy).Contents (Elt F)),
    unary main_call0_c_0 main_call0_v2 (broadcastInDim S16384x200 ![] bcast_S_S16384x200 : (⟨S_, .i32⟩ : BufTy).Contents (Elt F) → (⟨S16384x200, .i32⟩ : BufTy).Contents (Elt F)),
    binary main_arg0 main_call0_v2 main_call0_v3 (addi : (⟨S16384x200, .i32⟩ : BufTy).Contents (Elt F) → (⟨S16384x200, .i32⟩ : BufTy).Contents (Elt F) → (⟨S16384x200, .i32⟩ : BufTy).Contents (Elt F)),
    ternary main_call0_v1 main_call0_v3 main_arg0 main_call0_v4 (select : (⟨S16384x200, .i1⟩ : BufTy).Contents (Elt F) → (⟨S16384x200, .i32⟩ : BufTy).Contents (Elt F) → (⟨S16384x200, .i32⟩ : BufTy).Contents (Elt F) → (⟨S16384x200, .i32⟩ : BufTy).Contents (Elt F)),
    unary main_call0_v4 main_call0_v5 (broadcastInDim S16384x200x1 ![0, 1] bcast_S16384x200_S16384x200x1_0_1 : (⟨S16384x200, .i32⟩ : BufTy).Contents (Elt F) → (⟨S16384x200x1, .i32⟩ : BufTy).Contents (Elt F)),
    nullary main_call0_c_1 (constantI S1 32 1#32 : (⟨S1, .i32⟩ : BufTy).Contents (Elt F)),
    nullary main_call0_c_2 (constantI S_ 32 0#32 : (⟨S_, .i32⟩ : BufTy).Contents (Elt F)),
    unary main_call0_c_2 main_call0_v6 (broadcastInDim S16384x200x1 ![] bcast_S_S16384x200x1 : (⟨S_, .i32⟩ : BufTy).Contents (Elt F) → (⟨S16384x200x1, .i32⟩ : BufTy).Contents (Elt F)),
    binary main_call0_v5 main_call0_v6 main_call0_v7 (cmpi .sge : (⟨S16384x200x1, .i32⟩ : BufTy).Contents (Elt F) → (⟨S16384x200x1, .i32⟩ : BufTy).Contents (Elt F) → (⟨S16384x200x1, .i1⟩ : BufTy).Contents (Elt F)),
    unary main_call0_c_1 main_call0_v8 (broadcastInDim S1x1x1 ![2] bcast_S1_S1x1x1_2 : (⟨S1, .i32⟩ : BufTy).Contents (Elt F) → (⟨S1x1x1, .i32⟩ : BufTy).Contents (Elt F)),
    unary main_call0_v8 main_call0_v9 (broadcastInDim S16384x200x1 ![0, 1, 2] bcast_S1x1x1_S16384x200x1_0_1_2 : (⟨S1x1x1, .i32⟩ : BufTy).Contents (Elt F) → (⟨S16384x200x1, .i32⟩ : BufTy).Contents (Elt F)),
    binary main_call0_v5 main_call0_v9 main_call0_v10 (cmpi .sle : (⟨S16384x200x1, .i32⟩ : BufTy).Contents (Elt F) → (⟨S16384x200x1, .i32⟩ : BufTy).Contents (Elt F) → (⟨S16384x200x1, .i1⟩ : BufTy).Contents (Elt F)),
    binary main_call0_v7 main_call0_v10 main_call0_v11 (andi : (⟨S16384x200x1, .i1⟩ : BufTy).Contents (Elt F) → (⟨S16384x200x1, .i1⟩ : BufTy).Contents (Elt F) → (⟨S16384x200x1, .i1⟩ : BufTy).Contents (Elt F)),
    nullary main_call0_c_3 (constantI S_ 1 1#1 : (⟨S_, .i1⟩ : BufTy).Contents (Elt F)),
    binary main_call0_v11 main_call0_c_3 main_call0_v12 ((fun x v => Host.reduce IntOp.andi x v reducesTo_S16384x200x1_S16384x200_d2 h_S_) : (⟨S16384x200x1, .i1⟩ : BufTy).Contents (Elt F) → (⟨S_, .i1⟩ : BufTy).Contents (Elt F) → (⟨S16384x200, .i1⟩ : BufTy).Contents (Elt F)),
    binary main_arg1 main_call0_v5 main_call0_v13 ((fun x i => Host.gather gather_S2x5_S16384x200x1_S16384x200x5_2_0_n_n_0_2_15 x i) : (⟨S2x5, .f32⟩ : BufTy).Contents (Elt F) → (⟨S16384x200x1, .i32⟩ : BufTy).Contents (Elt F) → (⟨S16384x200x5, .f32⟩ : BufTy).Contents (Elt F)),
    unary main_call0_v12 main_call0_v14 (broadcastInDim S16384x200x5 ![0, 1] bcast_S16384x200_S16384x200x5_0_1 : (⟨S16384x200, .i1⟩ : BufTy).Contents (Elt F) → (⟨S16384x200x5, .i1⟩ : BufTy).Contents (Elt F)),
    nullary main_call0_cst (constant S_ .f32 0x7FC00000#32 : (⟨S_, .f32⟩ : BufTy).Contents (Elt F)),
    unary main_call0_cst main_call0_v15 (broadcastInDim S16384x200x5 ![] bcast_S_S16384x200x5 : (⟨S_, .f32⟩ : BufTy).Contents (Elt F) → (⟨S16384x200x5, .f32⟩ : BufTy).Contents (Elt F)),
    ternary main_call0_v14 main_call0_v13 main_call0_v15 main_v0 (select : (⟨S16384x200x5, .i1⟩ : BufTy).Contents (Elt F) → (⟨S16384x200x5, .f32⟩ : BufTy).Contents (Elt F) → (⟨S16384x200x5, .f32⟩ : BufTy).Contents (Elt F) → (⟨S16384x200x5, .f32⟩ : BufTy).Contents (Elt F)) ]

attribute [local irreducible] Host.reduce Host.gather in
/-- @main is that straight line: the two functions' definitions unfolded at their calls, both sides are one chain
    of host steps once sequencing is reassociated; a typed reference built from a literal buffer moves contents along
    the identity, so each step is the untyped one. The reduction and the gather stay folded: the equation never looks
    inside them, and their bodies are folds over every element of a full-size array. -/
theorem main_eq (c : Dev nD) : main (F := F) c = seq ops := by
  simp only [main, fn_take.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- The fold of the line at the result buffer is the composed term of the two argument buffers' contents. -/
theorem out_eq (V : Valuation τ sig (Elt Ideal)) :
    after (ops (F := Ideal)) V (main_v0 : DevRef τ sig)
      = refTerm (V (main_arg0 : DevRef τ sig)) (V (main_arg1 : DevRef τ sig)) := by
  unfold refTerm inRange idx3 wrapped
  after_results

/-- No operation of the line writes the first argument buffer. -/
theorem arg0_eq (V : Valuation τ sig (Elt Ideal)) :
    after (ops (F := Ideal)) V (main_arg0 : DevRef τ sig) = V (main_arg0 : DevRef τ sig) := by
  after_results

/-- No operation of the line writes the second argument buffer. -/
theorem arg1_eq (V : Valuation τ sig (Elt Ideal)) :
    after (ops (F := Ideal)) V (main_arg1 : DevRef τ sig) = V (main_arg1 : DevRef τ sig) := by
  after_results

/-- On every device, from any memory with zero counters: every weakly fair execution of @main terminates with the
    result buffer at the composed term of the argument arrays, and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v0).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.RefValue

end
-- ==== Proof.RefRead.lean ====
import proofs.«144789_g11879879543700_cont_fleet_348_2_alg».proof.Proof.RefRun
import Idealize.ShloMosaic.Lib.ValueIdx
import Idealize.ShloMosaic.Lib.Pipeline.Value
import Idealize.ShloMosaic.PureOps.Reduce

/-!
# The reference's result read at one entry

At an entry `(i, j, d)` the reference wraps a negative index once, checks the wrapped index against `[0, 1]`,
and returns the gathered row's component `d` when the check passes and the not-a-number literal otherwise.
When the index at `(i, j)` is `0` or `1` it is not negative, the wrap leaves it alone, the check passes, and
the gather's clamp is the identity: the result is `W[ids[i, j], d]`.
-/

noncomputable section

namespace Cert.ReferenceIdeal.RefValue

open Cert.ReferenceIdeal Cert.ReferenceIdeal.Gen Idealize.ShloMosaic Idealize.ShloMosaic.ValueIdx

/-- The wrapped index at `(i, j)` is a function of the index at `(i, j)` alone. -/
theorem wrapped_apply (ids : IVec S16384x200 32) (i : Fin 16384) (j : Fin 200) :
    wrapped ids (ix2 i j)
      = Scalar.select (IntOp.cmpi .slt (ids (ix2 i j)) 0#32) (IntOp.addi (ids (ix2 i j)) 2#32) (ids (ix2 i j)) := rfl

/-- An index that is `0` or `1` is not negative: the wrap leaves it as it is. -/
theorem wrapped_of_mem (ids : IVec S16384x200 32) (i : Fin 16384) (j : Fin 200)
    (h : ids (ix2 i j) = 0#32 ∨ ids (ix2 i j) = 1#32) : wrapped ids (ix2 i j) = ids (ix2 i j) := by
  rw [wrapped_apply]
  rcases h with h | h <;> rw [h] <;> rfl

/-- The trailing unit axis reads the wrapped index at the two leading coordinates. -/
theorem idx3_apply (ids : IVec S16384x200 32) (i : Fin 16384) (j : Fin 200) (k : Fin 1) :
    idx3 ids (ix3 i j k) = wrapped ids (ix2 i j) :=
  broadcastInDim_apply _ _ _ (ix3 i j k) (ix2 i j) (fun a => match a with | ⟨0, _⟩ => rfl | ⟨1, _⟩ => rfl)

/-- A fold by `and` from `1` over a set on which every word is `1` is `1`. -/
theorem fold_andi_one {ι : Type} (S : Finset ι) (x : ι → BitVec 1) (hx : ∀ k ∈ S, x k = 1#1) :
    S.fold IntOp.andi 1#1 x = 1#1 := by
  classical
  rw [Finset.fold_congr hx, Finset.fold_const (1#1) (by decide)]
  split <;> decide

/-- The bounds check at one entry of the index array with the trailing unit axis: both comparisons of the wrapped
    index, against the broadcast `0` and the broadcast `1`. -/
theorem check_apply (ids : IVec S16384x200 32) (i : Fin 16384) (j : Fin 200) (k : Fin 1) :
    andi (cmpi .sge (idx3 ids) (broadcastInDim S16384x200x1 ![] bcast_S_S16384x200x1 (constantI S_ 32 0#32)))
        (cmpi .sle (idx3 ids)
          (broadcastInDim S16384x200x1 ![0, 1, 2] bcast_S1x1x1_S16384x200x1_0_1_2
            (broadcastInDim S1x1x1 ![2] bcast_S1_S1x1x1_2 (constantI S1 32 1#32)))) (ix3 i j k)
      = IntOp.andi (IntOp.cmpi .sge (wrapped ids (ix2 i j)) 0#32) (IntOp.cmpi .sle (wrapped ids (ix2 i j)) 1#32) := by
  rw [← idx3_apply ids i j k]
  rfl

/-- Where the index is `0` or `1` the bounds check passes. -/
theorem inRange_of_mem (ids : IVec S16384x200 32) (i : Fin 16384) (j : Fin 200)
    (h : ids (ix2 i j) = 0#32 ∨ ids (ix2 i j) = 1#32) : inRange ids (ix2 i j) = 1#1 := by
  unfold inRange
  rw [Host.reduce_eq_fold]
  refine fold_andi_one _ _ fun q hq => ?_
  have hd : reducesTo_S16384x200x1_S16384x200_d2.drop q = ix2 i j := (Finset.mem_filter.mp hq).2
  have h0 : (q 0).val = i.val := by
    rw [← Shape.ReducesTo.drop_apply_val_of_eq reducesTo_S16384x200x1_S16384x200_d2 q 0 0, hd]
  have h1 : (q 1).val = j.val := by
    rw [← Shape.ReducesTo.drop_apply_val_of_eq reducesTo_S16384x200x1_S16384x200_d2 q 1 1, hd]
  have h2 : (q 2).val < 1 := (q 2).isLt
  have hq3 : q = ix3 i j (0 : Fin 1) := by
    funext a
    match a with
    | ⟨0, _⟩ => exact Fin.ext h0
    | ⟨1, _⟩ => exact Fin.ext h1
    | ⟨2, _⟩ => exact Fin.ext (by show (q 2).val = 0; omega)
  rw [hq3, check_apply, wrapped_of_mem ids i j h]
  rcases h with h | h <;> rw [h] <;> rfl

/-- The gather read at `(i, j, d)`: row `idx[i, j, 0]` of the table, read signed and clamped into `[0, 1]`, at
    column `d`. The one collapsed axis takes the clamped start index; the one offset axis takes the result's last
    coordinate; there is no batching axis. -/
theorem gather_apply (W : FVec Ideal S2x5 .f32) (idx : IVec S16384x200x1 32) (i : Fin 16384) (j : Fin 200) (d : Fin 5) :
    Host.gather gather_S2x5_S16384x200x1_S16384x200x5_2_0_n_n_0_2_15 W idx (ix3 i j d)
      = W (ix2 (⟨min (idx (ix3 i j (0 : Fin 1))).toInt.toNat 1, by omega⟩ : Fin 2) d) := by
  unfold Host.gather
  refine congrArg W (funext fun a => Fin.ext ?_)
  match a with
  | ⟨0, _⟩ =>
    show gather_S2x5_S16384x200x1_S16384x200x5_2_0_n_n_0_2_15.start (ix3 i j d) idx 0
        + gather_S2x5_S16384x200x1_S16384x200x5_2_0_n_n_0_2_15.batchCoord (ix3 i j d) 0
        + gather_S2x5_S16384x200x1_S16384x200x5_2_0_n_n_0_2_15.offCoord (ix3 i j d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S2x5_S16384x200x1_S16384x200x5_2_0_n_n_0_2_15.startIndexMap from
      List.mem_singleton.mpr rfl)]
    have hsi : gather_S2x5_S16384x200x1_S16384x200x5_2_0_n_n_0_2_15.siIdx (ix3 i j d)
        ⟨List.idxOf (0 : Fin 2) gather_S2x5_S16384x200x1_S16384x200x5_2_0_n_n_0_2_15.startIndexMap,
          List.idxOf_lt_length_iff.2 (List.mem_singleton.mpr rfl)⟩ = ix3 i j (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S2x5_S16384x200x1_S16384x200x5_2_0_n_n_0_2_15.start (ix3 i j d) idx 1
        + gather_S2x5_S16384x200x1_S16384x200x5_2_0_n_n_0_2_15.batchCoord (ix3 i j d) 1
        + gather_S2x5_S16384x200x1_S16384x200x5_2_0_n_n_0_2_15.offCoord (ix3 i j d) 1 = d.val
    rw [GatherDims.batchCoord_eq_zero _ _ _ List.not_mem_nil]
    have hs : gather_S2x5_S16384x200x1_S16384x200x5_2_0_n_n_0_2_15.start (ix3 i j d) idx 1 = 0 := by
      unfold GatherDims.start
      rw [dif_neg (show (1 : Fin 2) ∉ gather_S2x5_S16384x200x1_S16384x200x5_2_0_n_n_0_2_15.startIndexMap by decide)]
    have ho : gather_S2x5_S16384x200x1_S16384x200x5_2_0_n_n_0_2_15.offCoord (ix3 i j d) 1 = d.val := by
      unfold GatherDims.offCoord
      rw [dif_pos (show (1 : Fin 2) ∈ gather_S2x5_S16384x200x1_S16384x200x5_2_0_n_n_0_2_15.sKept by decide)]
      rfl
    rw [hs, ho, Nat.zero_add]

/-- THE REFERENCE AT ONE ENTRY. Where the index at `(i, j)` is `0` or `1`, the result at `(i, j, d)` is the table's
    entry at that row and column `d`: the wrap leaves the index alone, the bounds check passes, so the select takes
    the gathered value, and the gather's clamp into `[0, 1]` is the identity on `0` and on `1`. -/
theorem refTerm_apply (ids : IVec S16384x200 32) (W : FVec Ideal S2x5 .f32) (i : Fin 16384) (j : Fin 200) (d : Fin 5)
    (h : ids (ValueIdx.ix2 i j) = 0#32 ∨ ids (ValueIdx.ix2 i j) = 1#32) :
    refTerm ids W (ValueIdx.ix3 i j d)
      = W (ValueIdx.ix2 (if ids (ValueIdx.ix2 i j) = 1#32 then (1 : Fin 2) else 0) d) := by
  unfold refTerm
  rw [select_apply,
    broadcastInDim_apply _ _ _ (ix3 i j d) (ix2 i j) (fun a => match a with | ⟨0, _⟩ => rfl | ⟨1, _⟩ => rfl),
    inRange_of_mem ids i j h, select_one, gather_apply]
  refine congrArg (fun r : Fin 2 => W (ix2 r d)) (Fin.ext ?_)
  show min (idx3 ids (ix3 i j (0 : Fin 1))).toInt.toNat 1 = (if ids (ix2 i j) = 1#32 then (1 : Fin 2) else 0).val
  rw [idx3_apply, wrapped_of_mem ids i j h]
  rcases h with h | h <;> rw [h] <;> rfl

end Cert.ReferenceIdeal.RefValue

end
-- ==== Proof.Domain.lean ====
/-
  THE PRECONDITION DECODED: every index entry is 0 or 1.

  The precondition is the conjunction of three tests, each an and-reduction over both axes of an array of
  one-bit comparison results: |W| < +inf at every entry, 0 <= ids at every entry, and ids < 2 at every entry,
  the last two comparing 32-bit words as signed integers. When the conjunction is 1, each and-reduction is 1,
  so each comparison is 1 at every entry. A 32-bit word x whose signed value satisfies 0 <= x and x < 2 has
  signed value 0 or 1, and a word is determined by its signed value: x is the word 0 or the word 1. The test on
  W is not used.
-/
import proofs.«144789_g11879879543700_cont_fleet_348_2_alg».proof.Pre_finite_inputs
import Idealize.ShloMosaic.Lib.ReduceAll
import Idealize.ShloMosaic.Lib.ValueIdx

noncomputable section

namespace Cert.Proof.Domain

open Idealize.ShloMosaic Cert.Pre_finite_inputs

/-- The scalar shape has exactly one index. -/
instance subsingleton_scalar_idx : Subsingleton S_.Idx := ⟨fun a b => funext fun d => d.elim0⟩

/-- A 32-bit word that tests 0 <= x and x < 2, both signed, is the word 0 or the word 1. -/
theorem word_is_bit (x : BitVec 32) (h0 : IntOp.cmpi .sge x 0#32 = 1#1) (h2 : IntOp.cmpi .slt x 2#32 = 1#1) :
    x = 0#32 ∨ x = 1#32 := by
  rw [IntOp.cmpi_sge] at h0
  rw [IntOp.cmpi_slt] at h2
  have z0 : (0#32 : BitVec 32).toInt = 0 := by decide
  have z1 : (1#32 : BitVec 32).toInt = 1 := by decide
  have z2 : (2#32 : BitVec 32).toInt = 2 := by decide
  rw [z0] at h0
  rw [z2] at h2
  have hx : x.toInt = 0 ∨ x.toInt = 1 := by omega
  rcases hx with hx | hx
  · exact Or.inl (BitVec.eq_of_toInt_eq (hx.trans z0.symm))
  · exact Or.inr (BitVec.eq_of_toInt_eq (hx.trans z1.symm))

/-- THE PRECONDITION DECODED at entry (i, j) of the index array. -/
theorem index_is_bit [Cert.Pre_finite_inputs.Facts] (ids : IVec S16384x200 32) (W : FVec Ideal S2x5 .f32)
    (h : Cert.Pre_finite_inputs.fn (F := Ideal) ids W = fun _ => 1#1) (i : Fin 16384) (j : Fin 200) :
    ids (ValueIdx.ix2 i j) = 0#32 ∨ ids (ValueIdx.ix2 i j) = 1#32 := by
  have e := congrFun h ValueIdx.ix0
  dsimp only [Cert.Pre_finite_inputs.fn] at e
  -- the outer conjunction: (finite W and 0 <= ids) and ids < 2
  obtain ⟨e12, e3⟩ := IntOp.andi_eq_one.1 e
  obtain ⟨-, e2⟩ := IntOp.andi_eq_one.1 e12
  -- each and-reduction over both axes that is 1 has a 1 at every entry
  have g2 := Host.reduce_andi_all _ _ _ _ _ e2 (ValueIdx.ix2 i j)
  have g3 := Host.reduce_andi_all _ _ _ _ _ e3 (ValueIdx.ix2 i j)
  exact word_is_bit _ g2 g3

end Cert.Proof.Domain

end
-- ==== Proof.lean ====
/-
  The certificate: a lookup in a two-row table, computed two ways.

  The reference gathers row ids (i, j) of the 2 × 5 table W for every entry (i, j) of the 16384 × 200 index array.
  The kernel never gathers: it multiplies the index block, as reals, by a constant 0/1 matrix that repeats each column
  five times, compares the product with one half, and selects lane by lane between the two rows of W tiled 200 times.

  The statement's precondition says every float of W is finite and every index entry satisfies 0 <= ids < 2, so each
  index entry is the word 0 or the word 1. Under it, at every entry (i, j, d):
    * the kernel's value is W (1, d) when ids (i, j), read as a real, exceeds one half, and W (0, d) otherwise — that is,
      W (ids (i, j), d);
    * the reference wraps a negative index (there is none), tests 0 <= index <= 1 (true), and gathers W (ids (i, j), d).
  Both are selections; no arithmetic on W happens on either side, so W's finiteness is never used.

  The three frames: the two kernel programs' are the generated frame certificates; the reference's is its run with the
  result dropped. The kernel's idealization rewrote nothing, so nothing is owed for it.
-/
import proofs.«144789_g11879879543700_cont_fleet_348_2_alg».proof.Defs
import proofs.«144789_g11879879543700_cont_fleet_348_2_alg».proof.Proof.Gen.Kernel
import proofs.«144789_g11879879543700_cont_fleet_348_2_alg».proof.Proof.Gen.Kernel.Frame
import proofs.«144789_g11879879543700_cont_fleet_348_2_alg».proof.Proof.Gen.KernelIdeal
import proofs.«144789_g11879879543700_cont_fleet_348_2_alg».proof.Proof.Gen.KernelIdeal.Frame
import proofs.«144789_g11879879543700_cont_fleet_348_2_alg».proof.Proof.Gen.ReferenceIdeal
import proofs.«144789_g11879879543700_cont_fleet_348_2_alg».proof.Proof.Gen.Pre_finite_inputs
import proofs.«144789_g11879879543700_cont_fleet_348_2_alg».proof.Proof.KernelValue
import proofs.«144789_g11879879543700_cont_fleet_348_2_alg».proof.Proof.RefRun
import proofs.«144789_g11879879543700_cont_fleet_348_2_alg».proof.Proof.RefRead
import proofs.«144789_g11879879543700_cont_fleet_348_2_alg».proof.Proof.Domain
import Idealize.ShloMosaic.Adequacy
import Idealize.ShloMosaic.Init

noncomputable section

namespace Cert.Proof

open Idealize.ShloMosaic Idealize.ShloMosaic.ValueIdx Idealize.SL.Sem

/-- The word-level kernel program runs and keeps its arguments. -/
theorem frame_kernel : Cert.frame_Kernel := fun m ρ _ => Cert.Kernel.Gen.frame m ρ

/-- The idealized kernel program runs and keeps its arguments. -/
theorem frame_kernel_ideal : Cert.frame_KernelIdeal := fun m ρ _ => Cert.KernelIdeal.Gen.frame m ρ

/-- The reference runs and keeps its arguments: its run, with the result dropped. -/
theorem frame_reference : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories agreeing on the arguments both programs end with the same array: at every entry both hold the
    table's row chosen by that entry's index, which the precondition makes the word 0 or 1. -/
theorem algebraic : Cert.algebraic_KernelIdeal_ReferenceIdeal := by
  intro m ρ m' ρ' hpre hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  funext idx
  obtain ⟨i, j, d, rfl⟩ : ∃ (i : Fin 16384) (j : Fin 200) (d : Fin 5), idx = ix3 i j d :=
    ⟨idx 0, idx 1, idx 2, eq_ix3 idx⟩
  have hbit := Cert.Proof.Domain.index_is_bit _ _ (hpre c) i j
  rw [Cert.ReferenceIdeal.RefValue.refTerm_apply _ _ i j d hbit]
  exact (Cert.KernelIdeal.KernelValue.result_apply m c i j d hbit).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
